-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S64x32 : Shape := ⟨2, ![64, 32]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1x64 .f32) (main_arg9 : FVec F S1 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x3200000 32) (main_arg2 : FVec F S64x32 .f32) (main_arg3 : FVec F S64 .f32) (main_arg4 : FVec F S64x32 .f32) (main_arg5 : FVec F S64x64 .f32) (main_arg6 : FVec F S64 .f32) (main_arg7 : FVec F S64x64 .f32) (main_arg8 : FVec F S1x64 .f32) (main_arg9 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x3200000 : Shape := ⟨2, ![2, 3200000]⟩
abbrev S64x32 : Shape := ⟨2, ![64, 32]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x32 : Shape := ⟨2, ![3200000, 32]⟩
abbrev S100000x64 : Shape := ⟨2, ![100000, 64]⟩
abbrev S2000x32 : Shape := ⟨2, ![2000, 32]⟩
abbrev S2000x64 : Shape := ⟨2, ![2000, 64]⟩
abbrev S32x64 : Shape := ⟨2, ![32, 64]⟩
abbrev S3200000x64 : Shape := ⟨2, ![3200000, 64]⟩
abbrev S1x1 : Shape := ⟨2, ![1, 1]⟩
abbrev S2000x1 : Shape := ⟨2, ![2000, 1]⟩
abbrev S64x1 : Shape := ⟨2, ![64, 1]⟩

abbrev nBuf : Space → Nat
  | .hbm => 63
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S3200000, .i32⟩
  | .hbm, ⟨29, _⟩ => ⟨S3200000, .i1⟩
  | .hbm, ⟨30, _⟩ => ⟨S_, .i32⟩
  | .hbm, ⟨31, _⟩ => ⟨S3200000, .i32⟩
  | .hbm, ⟨32, _⟩ => ⟨S3200000, .i32⟩
  | .hbm, ⟨33, _⟩ => ⟨S3200000, .i32⟩
  | .hbm, ⟨34, _⟩ => ⟨S3200000x1, .i32⟩
  | .hbm, ⟨35, _⟩ => ⟨S3200000x32, .f32⟩
  | .hbm, ⟨36, _⟩ => ⟨S_, .f32⟩
  | .hbm, ⟨37, _⟩ => ⟨S100000x32, .f32⟩
  | .hbm, ⟨38, _⟩ => ⟨S3200000x1, .i32⟩
  | .hbm, ⟨39, _⟩ => ⟨S100000x32, .f32⟩
  | .hbm, ⟨40, _⟩ => ⟨S100000x32, .f32⟩
  | .hbm, ⟨41, _⟩ => ⟨S100000x32, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x64, .f32⟩
  | .hbm, ⟨53, _⟩ => ⟨S_, .f32⟩
  | .hbm, ⟨54, _⟩ => ⟨S100000x64, .f32⟩
  | .hbm, ⟨55, _⟩ => ⟨S3200000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S1x64, .f32⟩
  | .hbm, ⟨60, _⟩ => ⟨S1x1, .f32⟩
  | .hbm, ⟨61, _⟩ => ⟨S100000x1, .f32⟩
  | .hbm, ⟨62, _⟩ => ⟨S100000, .f32⟩
  | .local _ .vmem, ⟨0, _⟩ => ⟨S2000x32, .f32⟩
  | .local _ .vmem, ⟨1, _⟩ => ⟨S2000x32, .f32⟩
  | .local _ .vmem, ⟨2, _⟩ => ⟨S2000x32, .f32⟩
  | .local _ .vmem, ⟨3, _⟩ => ⟨S2000x32, .f32⟩
  | .local _ .vmem, ⟨4, _⟩ => ⟨S64x32, .f32⟩
  | .local _ .vmem, ⟨5, _⟩ => ⟨S1x64, .f32⟩
  | .local _ .vmem, ⟨6, _⟩ => ⟨S64x32, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S1x1, .f32⟩
  | .local _ .vmem, ⟨18, _⟩ => ⟨S2000x1, .f32⟩
  | .local _ .vmem, ⟨19, _⟩ => ⟨S2000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  shapeCasts_S64_S1x64 : S64.ShapeCasts S1x64
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x32_p1_0_S32x64 : S64x32.Transposes [1, 0] S32x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S1_S1x1 : S1.ShapeCasts S1x1
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  transposes_S1x64_p1_0_S64x1 : S1x64.Transposes [1, 0] S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S2000x32_S32x64_S2000x64_1_0_0_1_n_n_wf : DotDims.WF S2000x32 S32x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S2000x64_S64x64_S2000x64_1_0_0_1_n_n_wf : DotDims.WF S2000x64 S64x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S100000x32.size a
  hwx0_1 : ∀ i : grid0.Coords, EltTy.bits .f32 = 32 ∨ (Rect.block (s := S100000x32) S2000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x32.size a ≤ S64x32.size a
  hwx0_2 : ∀ i : grid0.Coords, EltTy.bits .f32 = 32 ∨ (Rect.block (s := S64x32) S64x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x1.size a ≤ S100000x1.size a
  hwx1_7 : ∀ i : grid1.Coords, EltTy.bits .f32 = 32 ∨ (Rect.block (s := S100000x1) S2000x1.size (cc1_transform_7 i) (hinb1_7 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v24) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v41) S2000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S64x32 : Shape := ⟨2, ![64, 32]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x32 : Shape := ⟨2, ![3200000, 32]⟩
abbrev S100000 : Shape := ⟨1, ![100000]⟩
abbrev S100000x1 : Shape := ⟨2, ![100000, 1]⟩
abbrev S32x64 : Shape := ⟨2, ![32, 64]⟩
abbrev S100000x64 : Shape := ⟨2, ![100000, 64]⟩
abbrev S3200000x64 : Shape := ⟨2, ![3200000, 64]⟩
abbrev S64x1 : Shape := ⟨2, ![64, 1]⟩
abbrev S1x1 : Shape := ⟨2, ![1, 1]⟩

abbrev nBuf : Space → Nat
  | .hbm => 92
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S64x32, .f32⟩
  | .hbm, ⟨3, _⟩ => ⟨S64, .f32⟩
  | .hbm, ⟨4, _⟩ => ⟨S64x32, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x64, .f32⟩
  | .hbm, ⟨9, _⟩ => ⟨S1, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .i32⟩
  | .hbm, ⟨15, _⟩ => ⟨S3200000, .i32⟩
  | .hbm, ⟨16, _⟩ => ⟨S3200000, .i1⟩
  | .hbm, ⟨17, _⟩ => ⟨S_, .i32⟩
  | .hbm, ⟨18, _⟩ => ⟨S3200000, .i32⟩
  | .hbm, ⟨19, _⟩ => ⟨S3200000, .i32⟩
  | .hbm, ⟨20, _⟩ => ⟨S3200000, .i32⟩
  | .hbm, ⟨21, _⟩ => ⟨S3200000x1, .i32⟩
  | .hbm, ⟨22, _⟩ => ⟨S3200000x32, .f32⟩
  | .hbm, ⟨23, _⟩ => ⟨S_, .f32⟩
  | .hbm, ⟨24, _⟩ => ⟨S100000x32, .f32⟩
  | .hbm, ⟨25, _⟩ => ⟨S3200000x1, .i32⟩
  | .hbm, ⟨26, _⟩ => ⟨S100000x32, .f32⟩
  | .hbm, ⟨27, _⟩ => ⟨S_, .f32⟩
  | .hbm, ⟨28, _⟩ => ⟨S3200000, .f32⟩
  | .hbm, ⟨29, _⟩ => ⟨S_, .f32⟩
  | .hbm, ⟨30, _⟩ => ⟨S100000, .f32⟩
  | .hbm, ⟨31, _⟩ => ⟨S3200000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x32, .f32⟩
  | .hbm, ⟨38, _⟩ => ⟨S100000x32, .f32⟩
  | .hbm, ⟨39, _⟩ => ⟨S32x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S32x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x64, .f32⟩
  | .hbm, ⟨59, _⟩ => ⟨S_, .f32⟩
  | .hbm, ⟨60, _⟩ => ⟨S100000x64, .f32⟩
  | .hbm, ⟨61, _⟩ => ⟨S3200000x1, .i32⟩
  | .hbm, ⟨62, _⟩ => ⟨S100000x64, .f32⟩
  | .hbm, ⟨63, _⟩ => ⟨S_, .f32⟩
  | .hbm, ⟨64, _⟩ => ⟨S3200000, .f32⟩
  | .hbm, ⟨65, _⟩ => ⟨S_, .f32⟩
  | .hbm, ⟨66, _⟩ => ⟨S100000, .f32⟩
  | .hbm, ⟨67, _⟩ => ⟨S3200000x1, .i32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .f32⟩
  | .hbm, ⟨72, _⟩ => ⟨S100000x1, .f32⟩
  | .hbm, ⟨73, _⟩ => ⟨S100000x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S100000x64, .f32⟩
  | .hbm, ⟨80, _⟩ => ⟨S64x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S64x1, .f32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x32_S32x64_S100000x64_1_0_0_1_n_n_wf : DotDims.WF S100000x32 S32x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized program's run with its result named.

  Every weakly fair execution of the whole program — host operations, the first layer's launch, host operations, the
  second launch, one more host operation — terminates without a fault, leaves the ten argument arrays as they were,
  and leaves in the result buffer what the last host stretch computes from the memory the second launch leaves:
  the value of the fold of buffer contents through the program's five segments, read at the result buffer.
-/
import proofs.«176131_j66168266162538_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the segment theorem's implicit arguments are found by unifying its conclusion with this one, which takes unfolding
-- plain definitions in a metavariable's type
set_option backward.isDefEq.respectTransparency.types false in
/-- The run of the five segments from the launch memory: the result buffer ends at the last boundary's contents,
    the arguments end as launched. -/
theorem run_result : θ_run defs (onTc (τ := τ) (main (F := F))) ⟨m, fun _ => 0, ρ⟩ (fun r => ∀ c : Dev nD,
      r.2.mem ((c.tc : Thread nD τ).loc main_v42) = W5 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v42 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.Result

end
-- ==== Proof.LibPlainDot.lean ====
/-
  A plain matrix product read index by index over the extended reals.

  For the dimension numbers of an `M×K` by `K×N` product (contract the left operand's second axis with the right
  operand's first; no batch axis) both the accelerator's matrix product into a zero accumulator and the host's
  `dot_general` are, at the exact (extended-real) values, the function
      (i, j) ↦ ∑ k < K, l (i, k) · r (k, j).
  Row `i` of the product depends on row `i` of the left operand only, so a block of rows of the product is the
  product of the same block of rows of the left operand: this is what lets a product computed tile by tile over the
  row axis be compared with one whole product.
-/
import Idealize.ShloMosaic.PureOps.Ideal.Laws
import Idealize.ShloMosaic.Lib.ValueIdx

noncomputable section

namespace Cert.Lib.PlainDot

open Idealize.ShloMosaic Idealize.ShloMosaic.ValueIdx

/-- The matrix product of an `M×K` and a `K×N` array of extended reals, index by index. -/
def mm {M K N : Nat} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem mm_apply {M K N : Nat} (l : (⟨2, ![M, K]⟩ : Shape).Idx → EReal) (r : (⟨2, ![K, N]⟩ : Shape).Idx → EReal)
    (i : Fin M) (j : Fin N) : mm l r (ix2 i j) = ∑ k : Fin K, l (ix2 i k) * r (ix2 k j) := rfl

/-- The sum over the one-axis contraction index of the plain dimension numbers is the sum over `k < K` of the
    left operand at `(i, k)` times the right operand at `(k, j)`. -/
theorem contr_sum (M K N : Nat) (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = mm l r j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact ((DotDims.plain M K N).lhsIdx_val_of_single (cl := 1) rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single (cr := 0) rfl j _).trans hk
      | ⟨1, _⟩ => rfl)
  rw [el, er]
  rfl

/-- The accelerator's matrix product into the zero accumulator, at the exact values, is `mm`. -/
theorem matmul_zero {M K N : Nat} {φ₁ φ₂ : FTy} (prec : Option ContractPrecision)
    (l : FVec Ideal ⟨2, ![M, K]⟩ φ₁) (r : FVec Ideal ⟨2, ![K, N]⟩ φ₂) :
    matmul (F := Ideal) (DotDims.plain M K N) prec l r (constant (F := Ideal) ⟨2, ![M, N]⟩ .f32 0x00000000#32) = mm l r :=
  funext fun j => (Ideal.matmul_constant_zero_apply (DotDims.plain M K N) prec l r j).trans (contr_sum M K N l r j)

/-- The host's `dot_general`, at the exact values, is `mm`. -/
theorem dotGeneral {M K N : Nat} {φ₁ φ₂ : FTy} (prec : Option ContractPrecision)
    (l : FVec Ideal ⟨2, ![M, K]⟩ φ₁) (r : FVec Ideal ⟨2, ![K, N]⟩ φ₂) :
    Host.dotGeneral (F := Ideal) (DotDims.plain M K N) prec l r = mm l r :=
  funext fun j => (Ideal.dotGeneral_apply (DotDims.plain M K N) prec .single l r j).trans (contr_sum M K N l r j)

/-- Row locality: a row of the product reads the same row of the left operand. If `l'` at `(p, k)` is `l` at `(i, k)`
    for every `k`, the products agree at `(p, j)` and `(i, j)`. -/
theorem mm_row {M M' K N : Nat} (l : (⟨2, ![M, K]⟩ : Shape).Idx → EReal) (l' : (⟨2, ![M', K]⟩ : Shape).Idx → EReal)
    (r : (⟨2, ![K, N]⟩ : Shape).Idx → EReal) (i : Fin M) (p : Fin M') (j : Fin N)
    (h : ∀ k : Fin K, l' (ix2 p k) = l (ix2 i k)) : mm l' r (ix2 p j) = mm l r (ix2 i j) := by
  rw [mm_apply, mm_apply]
  exact Finset.sum_congr rfl fun k _ => by rw [h k]

end Cert.Lib.PlainDot

end
-- ==== Proof.LibBilinear.lean ====
/-
  The bilinear score  (a · q) · bᵀ  read index by index over the extended reals.

  With  a : M×K,  q : K×K,  b : N×K  the score at (i, n) is  ∑ k, (∑ j, a (i, j) · q (j, k)) · b (n, k).
  Entry (i, n) reads row i of a, all of q, and row n of b only.  Hence a tile of the score — rows taken from a
  block of rows of a, columns from a block of rows of b — is the score of the two blocks, and a score computed tile
  by tile over both axes is the one whole score.
-/
import proofs.«176131_j66168266162538_1_alg».proof.Proof.LibPlainDot
import Idealize.ShloMosaic.Lib.ValueLayout

noncomputable section

namespace Cert.Lib.Bilinear

open Idealize.ShloMosaic Idealize.ShloMosaic.ValueIdx Cert.Lib.PlainDot

/-- The transposed array: entry (k, n) is the operand's entry (n, k). -/
def tr {N K : Nat} (b : (⟨2, ![N, K]⟩ : Shape).Idx → EReal) : (⟨2, ![K, N]⟩ : Shape).Idx → EReal :=
  fun j => b (ix2 (j 1) (j 0))

theorem tr_apply {N K : Nat} (b : (⟨2, ![N, K]⟩ : Shape).Idx → EReal) (k : Fin K) (n : Fin N) :
    tr b (ix2 k n) = b (ix2 n k) := rfl

/-- The layout operation that swaps the two axes of a matrix is `tr`. -/
theorem transpose_eq_tr {N K : Nat} (b : (⟨2, ![N, K]⟩ : Shape).Idx → EReal)
    (h : (⟨2, ![N, K]⟩ : Shape).Transposes [1, 0] ⟨2, ![K, N]⟩) :
    transpose ⟨2, ![K, N]⟩ [1, 0] b h = tr b :=
  funext fun j =>
    calc transpose ⟨2, ![K, N]⟩ [1, 0] b h j
        = transpose ⟨2, ![K, N]⟩ [1, 0] b h (ix2 (j 0) (j 1)) := congrArg _ (eq_ix2 j)
      _ = b (ix2 (j 1) (j 0)) := transpose_ix2_apply b h (j 0) (j 1)

/-- Locality of the product in both operands: entry `y` of a product of a block of rows of the left operand with a
    block of columns of the right operand is entry `z` of the whole product, when row `y 0` of the left block is row
    `z 0` of the whole and column `y 1` of the right block is column `z 1` of the whole. -/
theorem mm_block2 {M M' K N N' : Nat} (l : (⟨2, ![M, K]⟩ : Shape).Idx → EReal) (l' : (⟨2, ![M', K]⟩ : Shape).Idx → EReal)
    (r : (⟨2, ![K, N]⟩ : Shape).Idx → EReal) (r' : (⟨2, ![K, N']⟩ : Shape).Idx → EReal)
    (y : (⟨2, ![M', N']⟩ : Shape).Idx) (z : (⟨2, ![M, N]⟩ : Shape).Idx)
    (hl : ∀ k : Fin K, l' (ix2 (y 0) k) = l (ix2 (z 0) k)) (hr : ∀ k : Fin K, r' (ix2 k (y 1)) = r (ix2 k (z 1))) :
    mm l' r' y = mm l r z := by
  unfold mm
  exact Finset.sum_congr rfl fun k _ => by rw [hl k, hr k]

/-- The bilinear score (a · q) · bᵀ. -/
def score {M K N : Nat} (a : (⟨2, ![M, K]⟩ : Shape).Idx → EReal) (q : (⟨2, ![K, K]⟩ : Shape).Idx → EReal)
    (b : (⟨2, ![N, K]⟩ : Shape).Idx → EReal) : (⟨2, ![M, N]⟩ : Shape).Idx → EReal :=
  mm (mm a q) (tr b)

/-- A tile of the score is the score of the two row blocks. -/
theorem score_block {M M' K N N' : Nat} (a : (⟨2, ![M, K]⟩ : Shape).Idx → EReal) (a' : (⟨2, ![M', K]⟩ : Shape).Idx → EReal)
    (q : (⟨2, ![K, K]⟩ : Shape).Idx → EReal) (b : (⟨2, ![N, K]⟩ : Shape).Idx → EReal) (b' : (⟨2, ![N', K]⟩ : Shape).Idx → EReal)
    (y : (⟨2, ![M', N']⟩ : Shape).Idx) (z : (⟨2, ![M, N]⟩ : Shape).Idx)
    (ha : ∀ k : Fin K, a' (ix2 (y 0) k) = a (ix2 (z 0) k)) (hb : ∀ k : Fin K, b' (ix2 (y 1) k) = b (ix2 (z 1) k)) :
    score a' q b' y = score a q b z :=
  mm_block2 (mm a q) (mm a' q) (tr b) (tr b') y z (fun k => mm_row a a' q (z 0) (y 0) k ha) (fun k => hb k)

end Cert.Lib.Bilinear

end
-- ==== Proof.LibHostRead.lean ====
/-
  Small layout operations read at an index: a scalar broadcast everywhere; a vector made a column, a column spread
  over the columns of a matrix, a vector made a row, a row spread over the rows of a matrix; a one-column matrix
  flattened; a column spread over a matrix by the accelerator's broadcast; and a matrix assembled from three blocks
  of columns.  Each reads the operand at the evident index.
-/
import Idealize.ShloMosaic.PureOps.Ideal
import Idealize.ShloMosaic.Lib.ValueIdx
import Idealize.ShloMosaic.Lib.ValueLayout
import Idealize.ShloMosaic.Lib.Pipeline.Value

noncomputable section

namespace Cert.LibHostRead

open Idealize.ShloMosaic Idealize.ShloMosaic.ValueIdx

variable {α : Type}

/-- A scalar broadcast to any shape reads the scalar everywhere. -/
theorem bcast_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` made a column `[a, 1]` reads, at `(i, u)`, the vector at `i`. -/
theorem bcast_col_apply {a : Nat} (dims : Fin 1 → Fin 2) (hd : dims 0 = 0)
    (h : (⟨1, ![a]⟩ : Shape).BroadcastsInDim ⟨2, ![a, 1]⟩ dims)
    (x : (⟨1, ![a]⟩ : Shape).Idx → α) (i : Fin a) (u : Fin 1) :
    broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- A column `[a, 1]` spread over `[a, b]` reads, at `(i, c)`, the column at `i`. -/
theorem bcast_col_wide_apply {a b : Nat} (dims : Fin 2 → Fin 2) (hd0 : dims 0 = 0) (hd1 : dims 1 = 1)
    (h : (⟨2, ![a, 1]⟩ : Shape).BroadcastsInDim ⟨2, ![a, b]⟩ dims)
    (x : (⟨2, ![a, 1]⟩ : Shape).Idx → α) (i : Fin a) (c : Fin b) :
    broadcastInDim ⟨2, ![a, b]⟩ dims h x (ix2 i c) = x (ix2 i (0 : Fin 1)) := by
  refine broadcastInDim_apply dims h x (ix2 i c) (ix2 i (0 : Fin 1)) fun ax => ?_
  match ax with
  | ⟨0, _⟩ =>
    show i.val = if a = 1 then 0 else ((ix2 i c : (⟨2, ![a, b]⟩ : Shape).Idx) (dims 0)).val
    rw [hd0]
    split
    · have := i.isLt; omega
    · rfl
  | ⟨1, _⟩ =>
    show (0 : ℕ) = if (1 : ℕ) = 1 then 0 else _
    rw [if_pos rfl]

/-- A vector `[b]` made a row `[1, b]` reads, at `(u, c)`, the vector at `c`. -/
theorem bcast_row_apply {b : Nat} (dims : Fin 1 → Fin 2) (hd : dims 0 = 1)
    (h : (⟨1, ![b]⟩ : Shape).BroadcastsInDim ⟨2, ![1, b]⟩ dims)
    (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` spread over `[a, b]` reads, at `(i, c)`, the row at `c`. -/
theorem bcast_row_wide_apply {a b : Nat} (dims : Fin 2 → Fin 2) (hd0 : dims 0 = 0) (hd1 : dims 1 = 1)
    (h : (⟨2, ![1, b]⟩ : Shape).BroadcastsInDim ⟨2, ![a, b]⟩ dims)
    (x : (⟨2, ![1, b]⟩ : Shape).Idx → α) (i : Fin a) (c : Fin b) :
    broadcastInDim ⟨2, ![a, b]⟩ dims h x (ix2 i c) = x (ix2 (0 : Fin 1) c) := by
  refine broadcastInDim_apply dims h x (ix2 i c) (ix2 (0 : Fin 1) c) fun ax => ?_
  match ax with
  | ⟨0, _⟩ =>
    show (0 : ℕ) = if (1 : ℕ) = 1 then 0 else _
    rw [if_pos rfl]
  | ⟨1, _⟩ =>
    show c.val = if b = 1 then 0 else ((ix2 i c : (⟨2, ![a, b]⟩ : Shape).Idx) (dims 1)).val
    rw [hd1]
    split
    · have := c.isLt; omega
    · rfl

/-- A one-column matrix `[a, 1]` flattened to `[a]` reads, at `i`, the matrix at `(i, 0)`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The accelerator's broadcast of a column `[a, 1]` to `[a, b]` reads, at `(i, c)`, the column at `i`. -/
theorem broadcastTo_a1_ab_apply {a b : Nat} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else _
    rw [if_pos rfl]

end Cert.LibHostRead

end
-- ==== Proof.LibRecipOneHot.lean ====
/-
  General facts on the extended reals and on small vector operations, used where a program multiplies by a
  reciprocal and another divides, and where a one-hot matrix is built from an integer equality test.

  * A square is nonnegative and the root of a nonnegative number is nonnegative, infinities included; so a norm with a
    positive guard added is positive, hence not zero.
  * For y ≠ 0, a · (1 / y) = a / y (both are a · y⁻¹; the f32 pattern 0x3F800000 is the number one).
  * The one-hot entry "label = class" as an extended real, read from the equality test either as an unsigned number
    (label on the left) or widened to 32 bits and read signed (class on the left).
  * A column [a, 1] broadcast along the second axis to [a, b] reads, at (p, k), the column at (p, 0).
-/
import Idealize.ShloMosaic.PureOps.Ideal.Laws
import Idealize.ShloMosaic.Lib.IdealHost
import Idealize.ShloMosaic.Lib.ValueIdx
import Idealize.ShloMosaic.Lib.Pipeline.Value

noncomputable section

namespace Cert.Lib.RecipOneHot

open Idealize.ShloMosaic Idealize.ShloMosaic.ValueIdx

/-- A square is nonnegative on the extended reals. -/
theorem mul_self_nonneg' (a : EReal) : 0 ≤ a * a := by
  induction a using EReal.rec with
  | bot => simp
  | top => simp
  | coe r => rw [← EReal.coe_mul]; exact EReal.coe_nonneg.mpr (mul_self_nonneg r)

/-- The root of a nonnegative extended real is nonnegative. -/
theorem sqrt_nonneg' {a : EReal} (h : 0 ≤ a) : 0 ≤ Ideal.sqrt a := by
  induction a using EReal.rec with
  | bot => simp at h
  | top => simp
  | coe r =>
    have hr : ¬ r < 0 := not_lt.mpr (EReal.coe_nonneg.mp h)
    rw [Ideal.sqrt_coe, if_neg hr]
    exact EReal.coe_nonneg.mpr (Real.sqrt_nonneg r)

/-- The root of a sum of squares plus a positive guard is positive. -/
theorem guarded_norm_pos {ι : Type} (s : Finset ι) (a : ι → EReal) {g : EReal} (hg : 0 < g) :
    0 < Ideal.sqrt (∑ d ∈ s, a d * a d) + g :=
  lt_of_lt_of_le hg (le_add_of_nonneg_left (sqrt_nonneg' (Finset.sum_nonneg fun d _ => mul_self_nonneg' (a d))))

/-- Multiplying by the reciprocal of a nonzero number is dividing by it. -/
theorem mul_recip (a y : EReal) (hy : y ≠ 0) : a * Ideal.div (Ideal.ofBits .f32 0x3F800000#32) y = Ideal.div a y := by
  rw [Ideal.ofBits_one_f32]
  unfold Ideal.div
  rw [if_neg hy, if_neg hy, one_mul]

/-- The one-hot entry: 1 when the label is the class, else 0. -/
def hot (y : BitVec 32) (c : ℕ) : EReal := if y = BitVec.ofNat 32 c then 1 else 0

/-- Equality test read as an unsigned number, the label on the left. -/
theorem hot_unsigned (y : BitVec 32) (c : ℕ) :
    FloatOps.uitofp (F := Ideal) .f32 (IntOp.cmpi .eq y (BitVec.ofNat 32 c)) = hot y c := by
  unfold hot
  show (((IntOp.cmpi .eq y (BitVec.ofNat 32 c)).toNat : ℝ) : EReal) = _
  by_cases h : y = BitVec.ofNat 32 c
  · simp [IntOp.cmpi, h]
  · simp [IntOp.cmpi, h]

/-- Equality test widened to 32 bits and read as a signed number, the class on the left. -/
theorem hot_signed (y : BitVec 32) (c : ℕ) :
    FloatOps.sitofp (F := Ideal) .f32 ((IntOp.cmpi .eq (BitVec.ofNat 32 c) y).setWidth 32) = hot y c := by
  unfold hot
  show ((((IntOp.cmpi .eq (BitVec.ofNat 32 c) y).setWidth 32).toInt : ℝ) : EReal) = _
  by_cases h : y = BitVec.ofNat 32 c
  · subst h; simp [IntOp.cmpi]
  · have hb : (BitVec.ofNat 32 c == y) = false := beq_eq_false_iff_ne.mpr fun e => h e.symm
    simp [IntOp.cmpi, h, hb]

/-- A column [a, 1] broadcast along the second axis reads, at (p, k), the column at (p, 0). -/
theorem broadcastTo_col_apply {α : Type} {a b : ℕ} (x : (⟨2, ![a, 1]⟩ : Shape).Idx → α)
    (h : (⟨2, ![a, 1]⟩ : Shape).Broadcasts ⟨2, ![a, b]⟩) (p : Fin a) (k : Fin b) :
    broadcastTo ⟨2, ![a, b]⟩ x h (ix2 p k) = x (ix2 p (0 : Fin 1)) :=
  broadcastTo_apply x h _ _ (fun c => by
    match c with
    | ⟨0, _⟩ =>
      show p.val = if a = 1 then 0 else p.val
      split
      · have := p.isLt; omega
      · rfl
    | ⟨1, _⟩ => show (0 : ℕ) = if (1 : ℕ) = 1 then 0 else k.val; rw [if_pos rfl])

end Cert.Lib.RecipOneHot

end
-- ==== Proof.Layer.lean ====
/-
  One GraphSAGE layer with rectifier, and the classifier head, read index by index over the extended reals.

  For node features  mean, h : N×K  (the neighbour mean and the node's own features), weights  wl, wr : H×K  and a
  bias row  b : 1×H  the layer is
      (i, j) ↦ max ( ∑ k, mean (i, k) · wl (j, k)  +  ∑ k, h (i, k) · wr (j, k)  +  b (0, j) , 0 ),
  and the head with  w : 1×H,  c : 1×1  is  (i, 0) ↦ ∑ k, h (i, k) · w (0, k) + c (0, 0).
  Row i of either reads row i of the node features only, so a block of rows of the result is the same function of
  the same block of rows of the inputs: a layer computed tile by tile over the rows is the one whole layer.
  The accelerator adds the two products first and the bias last; the host adds the bias to the first product and
  then the second product. Addition of extended reals is commutative and associative, so these agree.
  The neighbour mean: one program multiplies the neighbour sum by the reciprocal 1 / max (count, 1), the other
  divides by max (count, 1). As max (count, 1) ≥ 1 is never zero, both are the sum times the inverse.
-/
import proofs.«176131_j66168266162538_1_alg».proof.Proof.LibBilinear
import proofs.«176131_j66168266162538_1_alg».proof.Proof.LibHostRead
import proofs.«176131_j66168266162538_1_alg».proof.Proof.LibRecipOneHot
import Idealize.ShloMosaic.Lib.IdealHost
import Idealize.ShloMosaic.Lib.ValueLayout

noncomputable section

namespace Cert.Sage

open Idealize.ShloMosaic Idealize.ShloMosaic.ValueIdx Cert.Lib.PlainDot Cert.Lib.Bilinear

/-! ## The two functions -/

/-- The layer: both products, the bias, the rectifier. The zero is the extended real the all-zero word encodes. -/
def layer {N K H : Nat} (mean h : (⟨2, ![N, K]⟩ : Shape).Idx → EReal) (wl wr : (⟨2, ![H, K]⟩ : Shape).Idx → EReal)
    (b : (⟨2, ![1, H]⟩ : Shape).Idx → EReal) : (⟨2, ![N, H]⟩ : Shape).Idx → EReal :=
  fun i => max (mm mean (tr wl) i + mm h (tr wr) i + b (ix2 (0 : Fin 1) (i 1))) (Ideal.ofBits .f32 0x00000000#32)

theorem layer_apply {N K H : Nat} (mean h : (⟨2, ![N, K]⟩ : Shape).Idx → EReal) (wl wr : (⟨2, ![H, K]⟩ : Shape).Idx → EReal)
    (b : (⟨2, ![1, H]⟩ : Shape).Idx → EReal) (p : Fin N) (q : Fin H) :
    layer mean h wl wr b (ix2 p q)
      = max (mm mean (tr wl) (ix2 p q) + mm h (tr wr) (ix2 p q) + b (ix2 (0 : Fin 1) q)) (Ideal.ofBits .f32 0x00000000#32) := rfl

/-- The head: one product with the classifier's row, plus its bias. -/
def head {N H : Nat} (h : (⟨2, ![N, H]⟩ : Shape).Idx → EReal) (w : (⟨2, ![1, H]⟩ : Shape).Idx → EReal)
    (c : (⟨2, ![1, 1]⟩ : Shape).Idx → EReal) : (⟨2, ![N, 1]⟩ : Shape).Idx → EReal :=
  fun i => mm h (tr w) i + c (ix2 (0 : Fin 1) (0 : Fin 1))

theorem head_apply {N H : Nat} (h : (⟨2, ![N, H]⟩ : Shape).Idx → EReal) (w : (⟨2, ![1, H]⟩ : Shape).Idx → EReal)
    (c : (⟨2, ![1, 1]⟩ : Shape).Idx → EReal) (p : Fin N) (u : Fin 1) :
    head h w c (ix2 p u) = mm h (tr w) (ix2 p u) + c (ix2 (0 : Fin 1) (0 : Fin 1)) := rfl

/-! ## Row locality -/

/-- Entry `y` of the layer of a block of rows is entry `z` of the whole layer when the two name the same column and
    row `y 0` of each block is row `z 0` of the whole. -/
theorem layer_congr {N N' K H : Nat} (mean h : (⟨2, ![N, K]⟩ : Shape).Idx → EReal)
    (mean' h' : (⟨2, ![N', K]⟩ : Shape).Idx → EReal) (wl wr : (⟨2, ![H, K]⟩ : Shape).Idx → EReal)
    (b : (⟨2, ![1, H]⟩ : Shape).Idx → EReal) (y : (⟨2, ![N', H]⟩ : Shape).Idx) (z : (⟨2, ![N, H]⟩ : Shape).Idx)
    (h1 : (y 1).val = (z 1).val)
    (hm : ∀ k : Fin K, mean' (ix2 (y 0) k) = mean (ix2 (z 0) k))
    (hh : ∀ k : Fin K, h' (ix2 (y 0) k) = h (ix2 (z 0) k)) :
    layer mean' h' wl wr b y = layer mean h wl wr b z := by
  have e : (y 1 : Fin H) = (z 1 : Fin H) := Fin.ext h1
  unfold layer
  rw [mm_block2 mean mean' (tr wl) (tr wl) y z hm (fun k => by rw [e]),
    mm_block2 h h' (tr wr) (tr wr) y z hh (fun k => by rw [e]), e]

/-- Entry `y` of the head of a block of rows is entry `z` of the whole head when row `y 0` of the block is row `z 0`
    of the whole. -/
theorem head_congr {N N' H : Nat} (h : (⟨2, ![N, H]⟩ : Shape).Idx → EReal) (h' : (⟨2, ![N', H]⟩ : Shape).Idx → EReal)
    (w : (⟨2, ![1, H]⟩ : Shape).Idx → EReal) (c : (⟨2, ![1, 1]⟩ : Shape).Idx → EReal)
    (y : (⟨2, ![N', 1]⟩ : Shape).Idx) (z : (⟨2, ![N, 1]⟩ : Shape).Idx)
    (hh : ∀ k : Fin H, h' (ix2 (y 0) k) = h (ix2 (z 0) k)) : head h' w c y = head h w c z := by
  have e : (y 1 : Fin 1) = (z 1 : Fin 1) := Subsingleton.elim (α := Fin 1) _ _
  unfold head
  rw [mm_block2 h h' (tr w) (tr w) y z hh (fun k => by rw [e])]

/-! ## The accelerator's spelling -/

/-- Two matrix products into zero accumulators with the weights transposed first, their sum, the bias row spread
    over the rows and added, the maximum with a splat zero: the layer. -/
theorem accel_layer {N K H : Nat} (hT : (⟨2, ![H, K]⟩ : Shape).Transposes [1, 0] ⟨2, ![K, H]⟩)
    (hB : (⟨2, ![1, H]⟩ : Shape).Broadcasts ⟨2, ![N, H]⟩)
    (mean h : FVec Ideal ⟨2, ![N, K]⟩ .bf16) (wl wr : FVec Ideal ⟨2, ![H, K]⟩ .bf16) (b : FVec Ideal ⟨2, ![1, H]⟩ .f32) :
    maximumf (addf (addf
        (matmul (F := Ideal) (DotDims.plain N K H) none mean (transpose ⟨2, ![K, H]⟩ [1, 0] wl hT)
          (constant (F := Ideal) ⟨2, ![N, H]⟩ .f32 0x00000000#32))
        (matmul (F := Ideal) (DotDims.plain N K H) none h (transpose ⟨2, ![K, H]⟩ [1, 0] wr hT)
          (constant (F := Ideal) ⟨2, ![N, H]⟩ .f32 0x00000000#32)))
        (broadcastTo ⟨2, ![N, H]⟩ b hB))
      (broadcast ⟨2, ![N, H]⟩ (Scalar.ofBits (F := Ideal) .f32 0x00000000#32))
      = layer mean h wl wr b := by
  rw [matmul_zero, matmul_zero, transpose_eq_tr, transpose_eq_tr]
  funext i
  obtain ⟨p, q, rfl⟩ : ∃ (p : Fin N) (q : Fin H), i = ix2 p q := ⟨i 0, i 1, eq_ix2 i⟩
  rw [maximumf_apply, addf_apply, addf_apply, broadcast_apply, broadcastTo_1b_ab_apply, layer_apply]
  rfl

/-- One matrix product into a zero accumulator with the classifier's row transposed first, its bias spread over the
    rows and added: the head. -/
theorem accel_head {N H : Nat} (hT : (⟨2, ![1, H]⟩ : Shape).Transposes [1, 0] ⟨2, ![H, 1]⟩)
    (hB : (⟨2, ![1, 1]⟩ : Shape).Broadcasts ⟨2, ![N, 1]⟩)
    (h : FVec Ideal ⟨2, ![N, H]⟩ .bf16) (w : FVec Ideal ⟨2, ![1, H]⟩ .bf16) (c : FVec Ideal ⟨2, ![1, 1]⟩ .f32) :
    addf (matmul (F := Ideal) (DotDims.plain N H 1) none h (transpose ⟨2, ![H, 1]⟩ [1, 0] w hT)
          (constant (F := Ideal) ⟨2, ![N, 1]⟩ .f32 0x00000000#32))
        (broadcastTo ⟨2, ![N, 1]⟩ c hB)
      = head h w c := by
  rw [matmul_zero, transpose_eq_tr]
  funext i
  obtain ⟨p, u, rfl⟩ : ∃ (p : Fin N) (u : Fin 1), i = ix2 p u := ⟨i 0, i 1, eq_ix2 i⟩
  rw [addf_apply, broadcastTo_1b_ab_apply, head_apply]
  have e : u = (0 : Fin 1) := Subsingleton.elim _ _
  rw [e]

/-! ## The host's spelling -/

/-- The first product, the bias row spread over the rows and added, the second product added, the maximum with a
    broadcast zero: the layer (the sum regrouped). -/
theorem host_layer {N K H : Nat} (hT : (⟨2, ![H, K]⟩ : Shape).Transposes [1, 0] ⟨2, ![K, H]⟩)
    (d2 : Fin 2 → Fin 2) (hd0 : d2 0 = 0) (hd1 : d2 1 = 1)
    (h2 : (⟨2, ![1, H]⟩ : Shape).BroadcastsInDim ⟨2, ![N, H]⟩ d2)
    (d0 : Fin 0 → Fin 2) (h0 : (⟨0, ![]⟩ : Shape).BroadcastsInDim ⟨2, ![N, H]⟩ d0)
    (mean h : FVec Ideal ⟨2, ![N, K]⟩ .f32) (wl wr : FVec Ideal ⟨2, ![H, K]⟩ .f32) (b : FVec Ideal ⟨2, ![1, H]⟩ .f32) :
    maximumf (addf (addf
        (Host.dotGeneral (F := Ideal) (DotDims.plain N K H) none mean (transpose ⟨2, ![K, H]⟩ [1, 0] wl hT))
        (broadcastInDim ⟨2, ![N, H]⟩ d2 h2 b))
        (Host.dotGeneral (F := Ideal) (DotDims.plain N K H) none h (transpose ⟨2, ![K, H]⟩ [1, 0] wr hT)))
      (broadcastInDim ⟨2, ![N, H]⟩ d0 h0 (constant (F := Ideal) ⟨0, ![]⟩ .f32 0x00000000#32))
      = layer mean h wl wr b := by
  rw [dotGeneral, dotGeneral, transpose_eq_tr, transpose_eq_tr]
  funext i
  obtain ⟨p, q, rfl⟩ : ∃ (p : Fin N) (q : Fin H), i = ix2 p q := ⟨i 0, i 1, eq_ix2 i⟩
  rw [maximumf_apply, addf_apply, addf_apply, Cert.LibHostRead.bcast_row_wide_apply d2 hd0 hd1 h2,
    Cert.LibHostRead.bcast_scalar_apply (t := ⟨2, ![N, H]⟩) d0 h0, constant_apply, layer_apply, add_right_comm]

/-- The product with the classifier's row transposed, its bias spread over the rows and added: the head. -/
theorem host_head {N H : Nat} (hT : (⟨2, ![1, H]⟩ : Shape).Transposes [1, 0] ⟨2, ![H, 1]⟩)
    (d2 : Fin 2 → Fin 2) (hd0 : d2 0 = 0) (hd1 : d2 1 = 1)
    (h2 : (⟨2, ![1, 1]⟩ : Shape).BroadcastsInDim ⟨2, ![N, 1]⟩ d2)
    (h : FVec Ideal ⟨2, ![N, H]⟩ .f32) (w : FVec Ideal ⟨2, ![1, H]⟩ .f32) (c : FVec Ideal ⟨2, ![1, 1]⟩ .f32) :
    addf (Host.dotGeneral (F := Ideal) (DotDims.plain N H 1) none h (transpose ⟨2, ![H, 1]⟩ [1, 0] w hT))
        (broadcastInDim ⟨2, ![N, 1]⟩ d2 h2 c)
      = head h w c := by
  rw [dotGeneral, transpose_eq_tr]
  funext i
  obtain ⟨p, u, rfl⟩ : ∃ (p : Fin N) (u : Fin 1), i = ix2 p u := ⟨i 0, i 1, eq_ix2 i⟩
  rw [addf_apply, Cert.LibHostRead.bcast_row_wide_apply d2 hd0 hd1 h2, head_apply]
  have e : u = (0 : Fin 1) := Subsingleton.elim _ _
  rw [e]

/-! ## A vector made a row -/

/-- A vector `[a]` recast as a row `[1, a]` and the same vector broadcast into a row are one array. -/
theorem row_cast_eq_bcast {a : Nat} (x : (⟨1, ![a]⟩ : Shape).Idx → EReal)
    (hc : (⟨1, ![a]⟩ : Shape).ShapeCasts ⟨2, ![1, a]⟩)
    (d1 : Fin 1 → Fin 2) (hd : d1 0 = 1) (h1 : (⟨1, ![a]⟩ : Shape).BroadcastsInDim ⟨2, ![1, a]⟩ d1) :
    shapeCast ⟨2, ![1, a]⟩ x hc = broadcastInDim ⟨2, ![1, a]⟩ d1 h1 x := by
  funext i
  obtain ⟨u, q, rfl⟩ : ∃ (u : Fin 1) (q : Fin a), i = ix2 u q := ⟨i 0, i 1, eq_ix2 i⟩
  rw [shapeCast_a_1a_apply, Cert.LibHostRead.bcast_row_apply d1 hd h1]

/-! ## The neighbour mean -/

/-- `max (c, 1)` is not zero. -/
theorem max_one_ne_zero (c : EReal) : max c (Ideal.ofBits .f32 0x3F800000#32) ≠ 0 := by
  rw [Ideal.ofBits_one_f32]
  exact ne_of_gt (lt_of_lt_of_le zero_lt_one (le_max_right c 1))

/-- The neighbour sum times the column of reciprocals `1 / max (count, 1)` spread over the features is the sum
    divided by the column `max (count, 1)` spread over the features. -/
theorem mean_mul_eq_div {N K : Nat}
    (d2 : Fin 2 → Fin 2) (hd0 : d2 0 = 0) (hd1 : d2 1 = 1)
    (h2 : (⟨2, ![N, 1]⟩ : Shape).BroadcastsInDim ⟨2, ![N, K]⟩ d2)
    (d1 : Fin 1 → Fin 2) (hd : d1 0 = 0) (h1 : (⟨1, ![N]⟩ : Shape).BroadcastsInDim ⟨2, ![N, 1]⟩ d1)
    (d0 : Fin 0 → Fin 1) (h0 : (⟨0, ![]⟩ : Shape).BroadcastsInDim ⟨1, ![N]⟩ d0)
    (agg : FVec Ideal ⟨2, ![N, K]⟩ .f32) (cnt : FVec Ideal ⟨1, ![N]⟩ .f32) :
    mulf agg (broadcastInDim ⟨2, ![N, K]⟩ d2 h2 (broadcastInDim ⟨2, ![N, 1]⟩ d1 h1
        (Host.divf (broadcastInDim ⟨1, ![N]⟩ d0 h0 (constant (F := Ideal) ⟨0, ![]⟩ .f32 0x3F800000#32))
          (maximumf cnt (broadcastInDim ⟨1, ![N]⟩ d0 h0 (constant (F := Ideal) ⟨0, ![]⟩ .f32 0x3F800000#32))))))
      = Host.divf agg (broadcastInDim ⟨2, ![N, K]⟩ d2 h2 (broadcastInDim ⟨2, ![N, 1]⟩ d1 h1
          (maximumf cnt (broadcastInDim ⟨1, ![N]⟩ d0 h0 (constant (F := Ideal) ⟨0, ![]⟩ .f32 0x3F800000#32))))) := by
  funext i
  obtain ⟨p, q, rfl⟩ : ∃ (p : Fin N) (q : Fin K), i = ix2 p q := ⟨i 0, i 1, eq_ix2 i⟩
  rw [mulf_apply, hostDivf_apply, Cert.LibHostRead.bcast_col_wide_apply d2 hd0 hd1 h2,
    Cert.LibHostRead.bcast_col_wide_apply d2 hd0 hd1 h2, Cert.LibHostRead.bcast_col_apply d1 hd h1,
    Cert.LibHostRead.bcast_col_apply d1 hd h1, hostDivf_apply, maximumf_apply,
    Cert.LibHostRead.bcast_scalar_apply (t := ⟨1, ![N]⟩) d0 h0, constant_apply]
  exact Cert.Lib.RecipOneHot.mul_recip _ _ (max_one_ne_zero _)

end Cert.Sage

end
-- ==== Proof.Region0.lean ====
/-
  The first launch: what its output array holds when it ends.

  The launch walks 50 blocks of 2000 rows. At block t the body reads rows 2000·t … 2000·t + 1999 of the neighbour
  mean and of the node features, the whole of both weight matrices and of the bias row, and writes the layer of
  those blocks to rows 2000·t … of the output. The layer is local in the row, so what block t writes is block t of
  the layer of the whole arrays; the 50 blocks tile the 100000 rows, so the output array ends as that one layer.
-/
import proofs.«176131_j66168266162538_1_alg».proof.Proof.Gen.KernelIdeal.Frame
import proofs.«176131_j66168266162538_1_alg».proof.Proof.Layer
import Idealize.ShloMosaic.Lib.Pipeline.Value

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of the blocks it loaded (a change of float format is the identity on
    the extended reals). -/
theorem pay0 (x0 x1 : Vec Ideal S2000x32 .f32) (x2 x4 : Vec Ideal S64x32 .f32) (x3 : Vec Ideal S1x64 .f32) :
    k0_pay1 (F := Ideal) x0 x1 x2 x4 x3 = layer (N := 2000) (K := 32) (H := 64) x0 x1 x2 x4 x3 := by
  unfold k0_pay1
  simp only [shapeCast_self]
  exact accel_layer (N := 2000) (K := 32) (H := 64) transposes_S64x32_p1_0_S32x64 broadcasts_S1x64_S2000x64 x0 x1 x2 x4 x3

/-- The layer of the arrays as the launch finds them. -/
def G0 (c : Dev nD) : S100000x64.Idx → EReal :=
  layer (N := 100000) (K := 32) (H := 64) (V c main_v24 : S100000x32.Idx → EReal) (V c main_arg0 : S100000x32.Idx → EReal)
    (V c main_arg2 : S64x32.Idx → EReal) (V c main_arg4 : S64x32.Idx → EReal) (V c main_v25 : S1x64.Idx → EReal)

/-- The printed index maps, decided over the 50 points: the row-tiled windows sit at block t, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A window whose one block is its whole array reads the array. -/
theorem blk2 (c : Dev nD) (t : Fin cfg0.N) : iblk0 V c 2 t = (V c main_arg2 : S64x32.Idx → EReal) := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 32 + 1 * (y 1).val = (y 1).val; omega

theorem blk4 (c : Dev nD) (t : Fin cfg0.N) : iblk0 V c 4 t = (V c main_arg4 : S64x32.Idx → EReal) := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 32 + 1 * (y 1).val = (y 1).val; omega

theorem blk3 (c : Dev nD) (t : Fin cfg0.N) : iblk0 V c 3 t = (V c main_v25 : S1x64.Idx → EReal) := by
  obtain ⟨-, -, -, -, -, -, e0, e1, -⟩ := idx_facts t
  funext y
  show V c main_v25 (((cfg0.win 3).blk t).view.emb y) = V c main_v25 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- What point t writes back is block t of the layer of the whole arrays. -/
theorem flushed0 (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz]
  simp only [View.ld_unit_zero (S := S2000x32) hz, View.ld_unit_zero (S := S64x32) hz, View.ld_unit_zero (S := S1x64) hz]
  rw [pay0, blk2, blk4, blk3]
  obtain ⟨a0, a1, b0, b1, -, -, -, -, -, -, o0, o1⟩ := idx_facts t
  funext y
  show layer (N := 2000) (K := 32) (H := 64) (iblk0 V c 0 t) (iblk0 V c 1 t) _ _ _ y = G0 V c (((cfg0.win 5).blk t).view.emb y)
  unfold G0
  refine layer_congr (N := 100000) (N' := 2000) (K := 32) (H := 64) _ _ _ _ _ _ _ y _ ?_ ?_ ?_
  · show (y 1).val = win0_5.index t (1 : Fin 2) * 64 + 1 * (y 1).val
    omega
  · intro k
    show V c main_v24 (((cfg0.win 0).blk t).view.emb (ix2 (y 0) k)) = V c main_v24 (ix2 ((((cfg0.win 5).blk t).view.emb y) 0) k)
    refine congrArg _ (funext fun a => Fin.ext ?_)
    match a with
    | ⟨0, _⟩ => show win0_0.index t (0 : Fin 2) * 2000 + 1 * (y 0).val = win0_5.index t (0 : Fin 2) * 2000 + 1 * (y 0).val; omega
    | ⟨1, _⟩ => show win0_0.index t (1 : Fin 2) * 32 + 1 * k.val = k.val; omega
  · intro k
    show V c main_arg0 (((cfg0.win 1).blk t).view.emb (ix2 (y 0) k)) = V c main_arg0 (ix2 ((((cfg0.win 5).blk t).view.emb y) 0) k)
    refine congrArg _ (funext fun a => Fin.ext ?_)
    match a with
    | ⟨0, _⟩ => show win0_1.index t (0 : Fin 2) * 2000 + 1 * (y 0).val = win0_5.index t (0 : Fin 2) * 2000 + 1 * (y 0).val; omega
    | ⟨1, _⟩ => show win0_1.index t (1 : Fin 2) * 32 + 1 * k.val = k.val; omega

/-- An index of the output array is in point t's block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v26).slice (win0_5.rect t)).set ↔ _
  rw [View.set_slice_whole, Rect.mem_set_unit]
  exact Iff.rfl

/-- Row r is in the block of point r / 2000. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 50 := N_0
  let t : Fin cfg0.N := ⟨(i 0).val / 2000, by show (i 0).val / 2000 < grid0.N; omega⟩
  have ht : t.val = (i 0).val / 2000 := rfl
  obtain ⟨-, -, -, -, -, -, -, -, -, -, o0, o1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- The output array after the launch is the layer of the arrays the launch found. -/
theorem final (c : Dev nD) : (dat0 V c).arrAt 5 cfg0.N = G0 V c :=
  (dat0 V c).arrAt_eq_of_cover 5 (G0 V c) (fun t _ => flushed0 V c t) (cover)

end Cert.KernelIdeal.Region0

end
-- ==== Proof.Region1.lean ====
/-
  The second launch: what its output array holds when it ends.

  Again 50 blocks of 2000 rows. At block t the body reads rows 2000·t … of the second neighbour mean and of the
  first layer's output, the whole of the second layer's weights and bias row and of the classifier's row and bias,
  and writes the head of the layer of those blocks to rows 2000·t … of the one-column output. Both the layer and the
  head are local in the row, so block t of the output is block t of the head of the layer of the whole arrays, and
  the 50 blocks tile the 100000 rows.
-/
import proofs.«176131_j66168266162538_1_alg».proof.Proof.Gen.KernelIdeal.Frame
import proofs.«176131_j66168266162538_1_alg».proof.Proof.Layer
import Idealize.ShloMosaic.Lib.Pipeline.Value

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value is the head of the layer of the blocks it loaded. -/
theorem pay1 (x0 x1 : Vec Ideal S2000x64 .f32) (x2 x4 : Vec Ideal S64x64 .f32) (x3 x5 : Vec Ideal S1x64 .f32)
    (x6 : Vec Ideal S1x1 .f32) :
    k1_pay1 (F := Ideal) x0 x1 x2 x4 x3 x5 x6
      = head (N := 2000) (H := 64) (layer (N := 2000) (K := 64) (H := 64) x0 x1 x2 x4 x3) x5 x6 := by
  unfold k1_pay1
  simp only [shapeCast_self]
  rw [← accel_layer (N := 2000) (K := 64) (H := 64) transposes_S64x64_p1_0_S64x64 broadcasts_S1x64_S2000x64 x0 x1 x2 x4 x3]
  exact accel_head (N := 2000) (H := 64) transposes_S1x64_p1_0_S64x1 broadcasts_S1x1_S2000x1 _ x5 x6

/-- The second layer of the arrays as the launch finds them. -/
def L1 (c : Dev nD) : S100000x64.Idx → EReal :=
  layer (N := 100000) (K := 64) (H := 64) (V c main_v38 : S100000x64.Idx → EReal) (V c main_v26 : S100000x64.Idx → EReal)
    (V c main_arg5 : S64x64.Idx → EReal) (V c main_arg7 : S64x64.Idx → EReal) (V c main_v39 : S1x64.Idx → EReal)

/-- The head of that layer. -/
def G1 (c : Dev nD) : S100000x1.Idx → EReal :=
  head (N := 100000) (H := 64) (L1 V c) (V c main_arg8 : S1x64.Idx → EReal) (V c main_v40 : S1x1.Idx → EReal)

/-- The printed index maps, decided over the 50 points: the row-tiled windows sit at block t, the others at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- A window whose one block is its whole array reads the array. -/
theorem blk2 (c : Dev nD) (t : Fin cfg1.N) : iblk1 V c 2 t = (V c main_arg5 : S64x64.Idx → EReal) := by
  obtain ⟨-, -, -, -, e0, e1, -⟩ := idx_facts t
  funext y
  show V c main_arg5 (((cfg1.win 2).blk t).view.emb y) = V c main_arg5 y
  refine congrArg _ (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

theorem blk3 (c : Dev nD) (t : Fin cfg1.N) : iblk1 V c 3 t = (V c main_v39 : S1x64.Idx → EReal) := by
  obtain ⟨-, -, -, -, -, -, e0, e1, -⟩ := idx_facts t
  funext y
  show V c main_v39 (((cfg1.win 3).blk t).view.emb y) = V c main_v39 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

theorem blk4 (c : Dev nD) (t : Fin cfg1.N) : iblk1 V c 4 t = (V c main_arg7 : S64x64.Idx → EReal) := by
  obtain ⟨-, -, -, -, -, -, -, -, e0, e1, -⟩ := idx_facts t
  funext y
  show V c main_arg7 (((cfg1.win 4).blk t).view.emb y) = V c main_arg7 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

theorem blk5 (c : Dev nD) (t : Fin cfg1.N) : iblk1 V c 5 t = (V c main_arg8 : S1x64.Idx → EReal) := by
  obtain ⟨-, -, -, -, -, -, -, -, -, -, e0, e1, -⟩ := idx_facts t
  funext y
  show V c main_arg8 (((cfg1.win 5).blk t).view.emb y) = V c main_arg8 y
  refine congrArg _ (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem blk6 (c : Dev nD) (t : Fin cfg1.N) : iblk1 V c 6 t = (V c main_v40 : S1x1.Idx → EReal) := by
  obtain ⟨-, -, -, -, -, -, -, -, -, -, -, -, e0, e1, -⟩ := idx_facts t
  funext y
  show V c main_v40 (((cfg1.win 6).blk t).view.emb y) = V c main_v40 y
  refine congrArg _ (funext fun a => Fin.ext ?_)
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- What point t writes back is block t of the head of the layer of the whole arrays. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S2000x64) hz, View.ld_unit_zero (S := S64x64) hz, View.ld_unit_zero (S := S1x64) hz,
    View.ld_unit_zero (S := S1x1) hz]
  rw [pay1, blk2, blk4, blk3, blk5, blk6]
  obtain ⟨a0, a1, b0, b1, -, -, -, -, -, -, -, -, -, -, o0, o1⟩ := idx_facts t
  funext y
  show head (N := 2000) (H := 64) (layer (N := 2000) (K := 64) (H := 64) (iblk1 V c 0 t) (iblk1 V c 1 t) _ _ _) _ _ y
    = G1 V c (((cfg1.win 7).blk t).view.emb y)
  unfold G1 L1
  refine head_congr (N := 100000) (N' := 2000) (H := 64) _ _ _ _ y _ fun q => ?_
  refine layer_congr (N := 100000) (N' := 2000) (K := 64) (H := 64) _ _ _ _ _ _ _ (ix2 (y 0) q) (ix2 ((((cfg1.win 7).blk t).view.emb y) 0) q) rfl ?_ ?_
  · intro k
    show V c main_v38 (((cfg1.win 0).blk t).view.emb (ix2 (y 0) k)) = V c main_v38 (ix2 ((((cfg1.win 7).blk t).view.emb y) 0) k)
    refine congrArg _ (funext fun a => Fin.ext ?_)
    match a with
    | ⟨0, _⟩ => show win1_0.index t (0 : Fin 2) * 2000 + 1 * (y 0).val = win1_7.index t (0 : Fin 2) * 2000 + 1 * (y 0).val; omega
    | ⟨1, _⟩ => show win1_0.index t (1 : Fin 2) * 64 + 1 * k.val = k.val; omega
  · intro k
    show V c main_v26 (((cfg1.win 1).blk t).view.emb (ix2 (y 0) k)) = V c main_v26 (ix2 ((((cfg1.win 7).blk t).view.emb y) 0) k)
    refine congrArg _ (funext fun a => Fin.ext ?_)
    match a with
    | ⟨0, _⟩ => show win1_1.index t (0 : Fin 2) * 2000 + 1 * (y 0).val = win1_7.index t (0 : Fin 2) * 2000 + 1 * (y 0).val; omega
    | ⟨1, _⟩ => show win1_1.index t (1 : Fin 2) * 64 + 1 * k.val = k.val; omega

/-- An index of the output array is in point t's block iff each coordinate is in the block's range on its axis. -/
theorem mem_blk (t : Fin cfg1.N) (i : S100000x1.Idx) :
    i ∈ ((cfg1.win 7).blk t).view.set ↔ ∀ a : Fin 2, win1_7.index t a * S2000x1.size a ≤ (i a).val ∧ (i a).val < win1_7.index t a * S2000x1.size a + S2000x1.size a := by
  show i ∈ ((View.whole main_v41).slice (win1_7.rect t)).set ↔ _
  rw [View.set_slice_whole, Rect.mem_set_unit]
  exact Iff.rfl

/-- Row r is in the block of point r / 2000. -/
theorem cover (i : S100000x1.Idx) :
    ∃ t : Fin cfg1.N, (cfg1.win 7).flush t = true ∧ i ∈ ((cfg1.win 7).blk t).view.set := by
  have hi0 : (i 0).val < 100000 := (i 0).isLt
  have hi1 : (i 1).val < 1 := (i 1).isLt
  have hN : grid1.N = 50 := N_1
  let t : Fin cfg1.N := ⟨(i 0).val / 2000, by show (i 0).val / 2000 < grid1.N; omega⟩
  have ht : t.val = (i 0).val / 2000 := rfl
  obtain ⟨-, -, -, -, -, -, -, -, -, -, -, -, -, -, o0, o1⟩ := idx_facts t
  refine ⟨t, flush1_7 t, ?_⟩
  rw [mem_blk]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 1 ≤ (i 1).val ∧ (i 1).val < win1_7.index t (1 : Fin 2) * 1 + 1; omega

/-- The output array after the launch is the head of the layer of the arrays the launch found. -/
theorem final (c : Dev nD) : (dat1 V c).arrAt 7 cfg1.N = G1 V c :=
  (dat1 V c).arrAt_eq_of_cover 7 (G1 V c) (fun t _ => flushed1 V c t) (cover)

end Cert.KernelIdeal.Region1

end
-- ==== Proof.KernelTerms.lean ====
/-
  The idealized program's host stretches as pure functions of the argument arrays.

  From the edge list [2, E] the program cuts the source row and the destination row; counts, by a scatter-add of
  ones, the edges arriving at each node; forms the column of reciprocals 1 / max (count, 1); and, for a feature array,
  gathers the rows at the sources (a negative index wrapped once), scatter-adds them at the destinations, and
  multiplies by the reciprocals: the neighbour mean. The program's value is then two layers and a head over these
  means, flattened from one column to a vector.
-/
import proofs.«176131_j66168266162538_1_alg».proof.Proof.Gen.KernelIdeal
import proofs.«176131_j66168266162538_1_alg».proof.Proof.Layer

noncomputable section

namespace Cert.KernelIdeal.Host

open Cert.KernelIdeal Cert.KernelIdeal.Gen Cert.Sage Idealize.ShloMosaic Idealize.ShloMosaic.TcCoe Idealize.SL.Sem

/-- An integer array and a float array of a shape, at the exact values. -/
abbrev I32 (s : Shape) := (⟨s, .i32⟩ : BufTy).Contents (Elt Ideal)
abbrev F32 (s : Shape) := (⟨s, .f32⟩ : BufTy).Contents (Elt Ideal)

/-- The source row of the edge list. -/
def src (x1 : I32 S2x3200000) : I32 S3200000 :=
  shapeCast _ (extractStridedSlice S1x3200000 ![0, 0] x1 slices_S2x3200000_S1x3200000_0_0) shapeCasts_S1x3200000_S3200000

/-- The destination row of the edge list. -/
def dst (x1 : I32 S2x3200000) : I32 S3200000 :=
  shapeCast _ (extractStridedSlice S1x3200000 ![1, 0] x1 slices_S2x3200000_S1x3200000_1_0) shapeCasts_S1x3200000_S3200000

/-- The destinations as a column of scatter indices. -/
def dstc (x1 : I32 S2x3200000) : I32 S3200000x1 :=
  broadcastInDim S3200000x1 ![0] bcast_S3200000_S3200000x1_0 (dst x1)

/-- The sources, a negative one wrapped once by the number of nodes, as a column of gather indices. -/
def wsrc (x1 : I32 S2x3200000) : I32 S3200000x1 :=
  broadcastInDim S3200000x1 ![0] bcast_S3200000_S3200000x1_0
    (select (cmpi .slt (src x1) (broadcastInDim S3200000 ![] bcast_S_S3200000 (constantI S_ 32 0#32)))
      (addi (src x1) (broadcastInDim S3200000 ![] bcast_S_S3200000 (constantI S_ 32 100000#32))) (src x1))

/-- How many edges arrive at each node: ones scatter-added at the destinations. -/
def cnt (x1 : I32 S2x3200000) : F32 S100000 :=
  Host.scatterAdd (F := Ideal) scatter_S100000_S3200000x1_S3200000_n_0_0_1
    (broadcastInDim S100000 ![] bcast_S_S100000 (constant (F := Ideal) S_ .f32 0x00000000#32)) (dstc x1)
    (broadcastInDim S3200000 ![] bcast_S_S3200000 (constant (F := Ideal) S_ .f32 0x3F800000#32))

/-- The column of reciprocals 1 / max (count, 1). -/
def inv (x1 : I32 S2x3200000) : F32 S100000x1 :=
  broadcastInDim S100000x1 ![0] bcast_S100000_S100000x1_0
    (Host.divf (F := Ideal) (broadcastInDim S100000 ![] bcast_S_S100000 (constant (F := Ideal) S_ .f32 0x3F800000#32))
      (maximumf (F := Ideal) (cnt x1) (broadcastInDim S100000 ![] bcast_S_S100000 (constant (F := Ideal) S_ .f32 0x3F800000#32))))

/-- The neighbour sum of a 32-feature array. -/
def agg32 (x0 : F32 S100000x32) (x1 : I32 S2x3200000) : F32 S100000x32 :=
  Host.scatterAdd (F := Ideal) scatter_S100000x32_S3200000x1_S3200000x32_1_0_0_1
    (broadcastInDim S100000x32 ![] bcast_S_S100000x32 (constant (F := Ideal) S_ .f32 0x00000000#32)) (dstc x1)
    (Host.gather gather_S100000x32_S3200000x1_S3200000x32_1_0_n_n_0_1_132 x0 (wsrc x1))

/-- The neighbour mean of a 32-feature array: the sum times the reciprocals. -/
def mean32 (x0 : F32 S100000x32) (x1 : I32 S2x3200000) : F32 S100000x32 :=
  mulf (F := Ideal) (φ := .f32) (agg32 x0 x1) (broadcastInDim S100000x32 ![0, 1] bcast_S100000x1_S100000x32_0_1 (inv x1))

/-- The neighbour sum of a 64-feature array. -/
def agg64 (h : F32 S100000x64) (x1 : I32 S2x3200000) : F32 S100000x64 :=
  Host.scatterAdd (F := Ideal) scatter_S100000x64_S3200000x1_S3200000x64_1_0_0_1
    (broadcastInDim S100000x64 ![] bcast_S_S100000x64 (constant (F := Ideal) S_ .f32 0x00000000#32)) (dstc x1)
    (Host.gather gather_S100000x64_S3200000x1_S3200000x64_1_0_n_n_0_1_164 h (wsrc x1))

/-- The neighbour mean of a 64-feature array. -/
def mean64 (h : F32 S100000x64) (x1 : I32 S2x3200000) : F32 S100000x64 :=
  mulf (F := Ideal) (φ := .f32) (agg64 h x1) (broadcastInDim S100000x64 ![0, 1] bcast_S100000x1_S100000x64_0_1 (inv x1))

/-- A bias vector recast as a row. -/
def row (x : F32 S64) : F32 S1x64 := shapeCast _ x shapeCasts_S64_S1x64

/-- The classifier's bias recast as a 1×1 array. -/
def cell (x : F32 S1) : F32 S1x1 := shapeCast _ x shapeCasts_S1_S1x1

/-- The first layer's output. -/
def h1 (x0 : F32 S100000x32) (x1 : I32 S2x3200000) (x2 : F32 S64x32) (x3 : F32 S64) (x4 : F32 S64x32) : F32 S100000x64 :=
  layer (N := 100000) (K := 32) (H := 64) (mean32 x0 x1) x0 x2 x4 (row x3)

/-- The second layer's output and the head, one column. -/
def logits (x0 : F32 S100000x32) (x1 : I32 S2x3200000) (x2 : F32 S64x32) (x3 : F32 S64) (x4 : F32 S64x32)
    (x5 : F32 S64x64) (x6 : F32 S64) (x7 : F32 S64x64) (x8 : F32 S1x64) (x9 : F32 S1) : F32 S100000x1 :=
  head (N := 100000) (H := 64)
    (layer (N := 100000) (K := 64) (H := 64) (mean64 (h1 x0 x1 x2 x3 x4) x1) (h1 x0 x1 x2 x3 x4) x5 x7 (row x6)) x8 (cell x9)

/-- The program's result: the column flattened. -/
def out (x0 : F32 S100000x32) (x1 : I32 S2x3200000) (x2 : F32 S64x32) (x3 : F32 S64) (x4 : F32 S64x32)
    (x5 : F32 S64x64) (x6 : F32 S64) (x7 : F32 S64x64) (x8 : F32 S1x64) (x9 : F32 S1) : F32 S100000 :=
  shapeCast _ (logits x0 x1 x2 x3 x4 x5 x6 x7 x8 x9) shapeCasts_S100000x1_S100000

end Cert.KernelIdeal.Host

end
-- ==== Proof.KernelValue.lean ====
/-
  The idealized program's result as a pure function of its arguments.

  The buffer contents are followed through the program's five segments: the first host stretch computes the edge
  rows, the reciprocal column and the first neighbour mean from the launch memory; the first launch leaves the first
  layer of what it finds; the second host stretch computes the second neighbour mean from that layer; the second
  launch leaves the head of the second layer; the last host operation flattens the column.
-/
import proofs.«176131_j66168266162538_1_alg».proof.Proof.Gen.KernelIdeal.Frame
import proofs.«176131_j66168266162538_1_alg».proof.Proof.Region0
import proofs.«176131_j66168266162538_1_alg».proof.Proof.Region1
import proofs.«176131_j66168266162538_1_alg».proof.Proof.KernelTerms
import Idealize.ShloMosaic.Lib.StableHlo.Run

set_option maxRecDepth 16384

noncomputable section

namespace Cert.KernelIdeal.Value

open Cert.KernelIdeal Cert.KernelIdeal.Gen Cert.KernelIdeal.Host Cert.Sage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The argument arrays at launch. -/
abbrev a0 : F32 S100000x32 := m ((c : Thread nD τ).loc main_arg0)
abbrev a1 : I32 S2x3200000 := m ((c : Thread nD τ).loc main_arg1)
abbrev a2 : F32 S64x32 := m ((c : Thread nD τ).loc main_arg2)
abbrev a3 : F32 S64 := m ((c : Thread nD τ).loc main_arg3)
abbrev a4 : F32 S64x32 := m ((c : Thread nD τ).loc main_arg4)
abbrev a5 : F32 S64x64 := m ((c : Thread nD τ).loc main_arg5)
abbrev a6 : F32 S64 := m ((c : Thread nD τ).loc main_arg6)
abbrev a7 : F32 S64x64 := m ((c : Thread nD τ).loc main_arg7)
abbrev a8 : F32 S1x64 := m ((c : Thread nD τ).loc main_arg8)
abbrev a9 : F32 S1 := m ((c : Thread nD τ).loc main_arg9)

/-! ## After the first host stretch -/

theorem W1_arg0 : W1 m ρ c (Proc.devRef .tc main_arg0) = a0 m c := by
  show StableHlo.after hostOps0 (W0 m ρ c) (Proc.devRef .tc main_arg0) = _
  after_results_simp <;> rfl
theorem W1_arg2 : W1 m ρ c (Proc.devRef .tc main_arg2) = a2 m c := by
  show StableHlo.after hostOps0 (W0 m ρ c) (Proc.devRef .tc main_arg2) = _
  after_results_simp <;> rfl
theorem W1_arg4 : W1 m ρ c (Proc.devRef .tc main_arg4) = a4 m c := by
  show StableHlo.after hostOps0 (W0 m ρ c) (Proc.devRef .tc main_arg4) = _
  after_results_simp <;> rfl
theorem W1_arg5 : W1 m ρ c (Proc.devRef .tc main_arg5) = a5 m c := by
  show StableHlo.after hostOps0 (W0 m ρ c) (Proc.devRef .tc main_arg5) = _
  after_results_simp <;> rfl
theorem W1_arg6 : W1 m ρ c (Proc.devRef .tc main_arg6) = a6 m c := by
  show StableHlo.after hostOps0 (W0 m ρ c) (Proc.devRef .tc main_arg6) = _
  after_results_simp <;> rfl
theorem W1_arg7 : W1 m ρ c (Proc.devRef .tc main_arg7) = a7 m c := by
  show StableHlo.after hostOps0 (W0 m ρ c) (Proc.devRef .tc main_arg7) = _
  after_results_simp <;> rfl
theorem W1_arg8 : W1 m ρ c (Proc.devRef .tc main_arg8) = a8 m c := by
  show StableHlo.after hostOps0 (W0 m ρ c) (Proc.devRef .tc main_arg8) = _
  after_results_simp <;> rfl
theorem W1_arg9 : W1 m ρ c (Proc.devRef .tc main_arg9) = a9 m c := by
  show StableHlo.after hostOps0 (W0 m ρ c) (Proc.devRef .tc main_arg9) = _
  after_results_simp <;> rfl
/-- The source row. -/
theorem W1_v1 : W1 m ρ c (Proc.devRef .tc main_v1) = src (a1 m c) := by
  show StableHlo.after hostOps0 (W0 m ρ c) (Proc.devRef .tc main_v1) = _
  after_results_simp <;> rfl
/-- The destination row. -/
theorem W1_v3 : W1 m ρ c (Proc.devRef .tc main_v3) = dst (a1 m c) := by
  show StableHlo.after hostOps0 (W0 m ρ c) (Proc.devRef .tc main_v3) = _
  after_results_simp <;> rfl
/-- The column of reciprocals. -/
theorem W1_v12 : W1 m ρ c (Proc.devRef .tc main_v12) = inv (a1 m c) := by
  show StableHlo.after hostOps0 (W0 m ρ c) (Proc.devRef .tc main_v12) = _
  after_results_simp <;> rfl
/-- The first neighbour mean. -/
theorem W1_v24 : W1 m ρ c (Proc.devRef .tc main_v24) = mean32 (a0 m c) (a1 m c) := by
  show StableHlo.after hostOps0 (W0 m ρ c) (Proc.devRef .tc main_v24) = _
  after_results_simp <;> rfl
/-- The first bias as a row. -/
theorem W1_v25 : W1 m ρ c (Proc.devRef .tc main_v25) = row (a3 m c) := by
  show StableHlo.after hostOps0 (W0 m ρ c) (Proc.devRef .tc main_v25) = _
  after_results_simp <;> rfl

/-! ## After the first launch -/

/-- The first launch's output array is the first layer. -/
theorem W2_v26 : W2 m ρ c (Proc.devRef .tc main_v26) = h1 (a0 m c) (a1 m c) (a2 m c) (a3 m c) (a4 m c) := by
  rw [show W2 m ρ c (Proc.devRef .tc main_v26) = (dat0 (V1 m ρ) c).arrAt 5 cfg0.N from W2_arr m ρ c 5, Region0.final]
  unfold Region0.G0 h1
  rw [show V1 m ρ c main_v24 = mean32 (a0 m c) (a1 m c) from W1_v24 m ρ c, show V1 m ρ c main_arg0 = a0 m c from W1_arg0 m ρ c,
    show V1 m ρ c main_arg2 = a2 m c from W1_arg2 m ρ c, show V1 m ρ c main_arg4 = a4 m c from W1_arg4 m ρ c,
    show V1 m ρ c main_v25 = row (a3 m c) from W1_v25 m ρ c]

theorem W2_v1 : W2 m ρ c (Proc.devRef .tc main_v1) = src (a1 m c) := (W2_of_ne m ρ c main_v1 (by decide)).trans (W1_v1 m ρ c)
theorem W2_v3 : W2 m ρ c (Proc.devRef .tc main_v3) = dst (a1 m c) := (W2_of_ne m ρ c main_v3 (by decide)).trans (W1_v3 m ρ c)
theorem W2_v12 : W2 m ρ c (Proc.devRef .tc main_v12) = inv (a1 m c) := (W2_of_ne m ρ c main_v12 (by decide)).trans (W1_v12 m ρ c)
theorem W2_arg5 : W2 m ρ c (Proc.devRef .tc main_arg5) = a5 m c := (W2_of_ne m ρ c main_arg5 (by decide)).trans (W1_arg5 m ρ c)
theorem W2_arg6 : W2 m ρ c (Proc.devRef .tc main_arg6) = a6 m c := (W2_of_ne m ρ c main_arg6 (by decide)).trans (W1_arg6 m ρ c)
theorem W2_arg7 : W2 m ρ c (Proc.devRef .tc main_arg7) = a7 m c := (W2_of_ne m ρ c main_arg7 (by decide)).trans (W1_arg7 m ρ c)
theorem W2_arg8 : W2 m ρ c (Proc.devRef .tc main_arg8) = a8 m c := (W2_of_ne m ρ c main_arg8 (by decide)).trans (W1_arg8 m ρ c)
theorem W2_arg9 : W2 m ρ c (Proc.devRef .tc main_arg9) = a9 m c := (W2_of_ne m ρ c main_arg9 (by decide)).trans (W1_arg9 m ρ c)

/-! ## After the second host stretch -/

/-- The second neighbour mean, of the first layer. -/
theorem W3_v38 : W3 m ρ c (Proc.devRef .tc main_v38)
    = mean64 (h1 (a0 m c) (a1 m c) (a2 m c) (a3 m c) (a4 m c)) (a1 m c) := by
  show StableHlo.after hostOps1 (W2 m ρ c) (Proc.devRef .tc main_v38) = _
  after_results_simp
  rw [W2_v1, W2_v3, W2_v12, W2_v26]
  rfl
theorem W3_v26 : W3 m ρ c (Proc.devRef .tc main_v26) = h1 (a0 m c) (a1 m c) (a2 m c) (a3 m c) (a4 m c) := by
  show StableHlo.after hostOps1 (W2 m ρ c) (Proc.devRef .tc main_v26) = _
  after_results_simp
  exact W2_v26 m ρ c
theorem W3_arg5 : W3 m ρ c (Proc.devRef .tc main_arg5) = a5 m c := by
  show StableHlo.after hostOps1 (W2 m ρ c) (Proc.devRef .tc main_arg5) = _
  after_results_simp
  exact W2_arg5 m ρ c
theorem W3_arg7 : W3 m ρ c (Proc.devRef .tc main_arg7) = a7 m c := by
  show StableHlo.after hostOps1 (W2 m ρ c) (Proc.devRef .tc main_arg7) = _
  after_results_simp
  exact W2_arg7 m ρ c
theorem W3_arg8 : W3 m ρ c (Proc.devRef .tc main_arg8) = a8 m c := by
  show StableHlo.after hostOps1 (W2 m ρ c) (Proc.devRef .tc main_arg8) = _
  after_results_simp
  exact W2_arg8 m ρ c
/-- The second bias as a row. -/
theorem W3_v39 : W3 m ρ c (Proc.devRef .tc main_v39) = row (a6 m c) := by
  show StableHlo.after hostOps1 (W2 m ρ c) (Proc.devRef .tc main_v39) = _
  after_results_simp
  rw [W2_arg6]
  rfl
/-- The classifier's bias as a 1×1 array. -/
theorem W3_v40 : W3 m ρ c (Proc.devRef .tc main_v40) = cell (a9 m c) := by
  show StableHlo.after hostOps1 (W2 m ρ c) (Proc.devRef .tc main_v40) = _
  after_results_simp
  rw [W2_arg9]
  rfl

/-! ## After the second launch, and the last host operation -/

/-- The second launch's output array is the head of the second layer. -/
theorem W4_v41 : W4 m ρ c (Proc.devRef .tc main_v41)
    = logits (a0 m c) (a1 m c) (a2 m c) (a3 m c) (a4 m c) (a5 m c) (a6 m c) (a7 m c) (a8 m c) (a9 m c) := by
  rw [show W4 m ρ c (Proc.devRef .tc main_v41) = (dat1 (V3 m ρ) c).arrAt 7 cfg1.N from W4_arr m ρ c 7, Region1.final]
  unfold Region1.G1 Region1.L1 logits
  rw [show V3 m ρ c main_v38 = _ from W3_v38 m ρ c, show V3 m ρ c main_v26 = _ from W3_v26 m ρ c,
    show V3 m ρ c main_arg5 = _ from W3_arg5 m ρ c, show V3 m ρ c main_arg7 = _ from W3_arg7 m ρ c,
    show V3 m ρ c main_v39 = _ from W3_v39 m ρ c, show V3 m ρ c main_arg8 = _ from W3_arg8 m ρ c,
    show V3 m ρ c main_v40 = _ from W3_v40 m ρ c]

/-- THE RESULT: the last boundary's contents at the result buffer is the program's pure function of the arguments. -/
theorem W5_v42 : W5 m ρ c (Proc.devRef .tc main_v42)
    = out (a0 m c) (a1 m c) (a2 m c) (a3 m c) (a4 m c) (a5 m c) (a6 m c) (a7 m c) (a8 m c) (a9 m c) := by
  show StableHlo.after hostOps2 (W4 m ρ c) (Proc.devRef .tc main_v42) = _
  after_results
  rw [W4_v41]
  rfl

end Cert.KernelIdeal.Value

end
-- ==== Proof.RefValue.lean ====
/-
  The reference's stages as the layer and the head.

  The reference computes, stage by stage: the neighbour mean (the neighbour sum divided by max (count, 1)), the two
  products with the transposed weights, the bias made a row and spread over the rows, the sum, the rectifier; the
  same again on the first layer's output; then the product with the classifier's transposed row plus its bias.
  Read whole-array, the rectified stages are the layer of the mean and the features, and the last is the head.
-/
import proofs.«176131_j66168266162538_1_alg».proof.Proof.Gen.ReferenceIdeal.Read
import proofs.«176131_j66168266162538_1_alg».proof.Proof.Layer

noncomputable section

namespace Cert.ReferenceIdeal.RefValue

open Cert.ReferenceIdeal Cert.ReferenceIdeal.Gen Cert.ReferenceIdeal.Read Cert.Sage
open Idealize.ShloMosaic Idealize.ShloMosaic.TcCoe Idealize.SL.Sem

/-- An integer array and a float array of a shape, at the exact values. -/
abbrev I32 (s : Shape) := (⟨s, .i32⟩ : BufTy).Contents (Elt Ideal)
abbrev F32 (s : Shape) := (⟨s, .f32⟩ : BufTy).Contents (Elt Ideal)

variable (x0 : F32 S100000x32) (x1 : I32 S2x3200000) (x2 : F32 S64x32) (x3 : F32 S64) (x4 : F32 S64x32)
  (x5 : F32 S64x64) (x6 : F32 S64) (x7 : F32 S64x64) (x8 : F32 S1x64) (x9 : F32 S1)

/-- The first rectified stage is the layer of the first mean and the node features. -/
theorem layer1 : val_main_v31 (F := Ideal) x0 x1 x2 x3 x4
    = layer (N := 100000) (K := 32) (H := 64) (val_main_v22 (F := Ideal) x0 x1) x0 x2 x4 (val_main_v25 (F := Ideal) x3) := by
  unfold val_main_v31 val_main_v30 val_main_v27 val_main_v29 val_main_v24 val_main_v26 val_main_v23 val_main_v28
    val_main_call0_v0 val_main_call0_cst
  exact host_layer (N := 100000) (K := 32) (H := 64) transposes_S64x32_S32x64_1_0 ![0, 1] rfl rfl
    bcast_S1x64_S100000x64_0_1 ![] bcast_S_S100000x64 _ _ _ _ _

/-- The second rectified stage is the layer of the second mean and the first layer's output. -/
theorem layer2 : val_main_v59 (F := Ideal) x0 x1 x2 x3 x4 x5 x6 x7
    = layer (N := 100000) (K := 64) (H := 64) (val_main_v50 (F := Ideal) x0 x1 x2 x3 x4)
        (val_main_v31 (F := Ideal) x0 x1 x2 x3 x4) x5 x7 (val_main_v53 (F := Ideal) x6) := by
  unfold val_main_v59 val_main_v58 val_main_v55 val_main_v57 val_main_v52 val_main_v54 val_main_v51 val_main_v56
    val_main_call1_v0 val_main_call1_cst
  exact host_layer (N := 100000) (K := 64) (H := 64) transposes_S64x64_S64x64_1_0 ![0, 1] rfl rfl
    bcast_S1x64_S100000x64_0_1 ![] bcast_S_S100000x64 _ _ _ _ _

/-- The last stage before the flattening is the head of the second layer. -/
theorem logits : val_main_v64 (F := Ideal) x0 x1 x2 x3 x4 x5 x6 x7 x8 x9
    = head (N := 100000) (H := 64) (val_main_v59 (F := Ideal) x0 x1 x2 x3 x4 x5 x6 x7) x8 (val_main_v62 (F := Ideal) x9) := by
  unfold val_main_v64 val_main_v61 val_main_v63 val_main_v60
  exact host_head (N := 100000) (H := 64) transposes_S1x64_S64x1_1_0 ![0, 1] rfl rfl bcast_S1x1_S100000x1_0_1 _ _ _

end Cert.ReferenceIdeal.RefValue

end
-- ==== Proof.Bridge.lean ====
/-
  The two programs compute one function.

  Both programs cut the same edge rows, count the same arrivals, gather and scatter-add the same rows: those host
  stretches are the same operations on the same arguments. They differ in three places, none of which changes a
  value over the extended reals: the neighbour mean (a product with 1 / max (count, 1) against a quotient by
  max (count, 1), the divisor never zero), the order in which a layer's three summands are added, and how a bias
  vector is made a row (a recast against a broadcast).
-/
import proofs.«176131_j66168266162538_1_alg».proof.Proof.KernelTerms
import proofs.«176131_j66168266162538_1_alg».proof.Proof.RefValue

noncomputable section

namespace Cert.Bridge

open Cert.Sage Idealize.ShloMosaic Idealize.ShloMosaic.TcCoe Idealize.SL.Sem

open Cert.KernelIdeal.Host (I32 F32)

variable (x0 : F32 Cert.KernelIdeal.S100000x32) (x1 : I32 Cert.KernelIdeal.S2x3200000) (x2 : F32 Cert.KernelIdeal.S64x32)
  (x3 : F32 Cert.KernelIdeal.S64) (x4 : F32 Cert.KernelIdeal.S64x32) (x5 : F32 Cert.KernelIdeal.S64x64)
  (x6 : F32 Cert.KernelIdeal.S64) (x7 : F32 Cert.KernelIdeal.S64x64) (x8 : F32 Cert.KernelIdeal.S1x64)
  (x9 : F32 Cert.KernelIdeal.S1)

/-! ## The shared host stretches -/

/-- The arrival counts are the same scatter-add of ones. -/
theorem cnt_eq : Cert.KernelIdeal.Host.cnt x1 = Cert.ReferenceIdeal.Read.val_main_v17 (F := Ideal) x1 := rfl

/-- The reference counts the arrivals a second time, by the same operations. -/
theorem cnt_eq' : Cert.KernelIdeal.Host.cnt x1 = Cert.ReferenceIdeal.Read.val_main_v45 (F := Ideal) x1 := rfl

/-- The first neighbour sum is the same gather and scatter-add. -/
theorem agg32_eq : Cert.KernelIdeal.Host.agg32 x0 x1 = Cert.ReferenceIdeal.Read.val_main_v13 (F := Ideal) x0 x1 := rfl

/-- The reference's second neighbour sum, of any 64-feature array. -/
def refAgg64 (h : F32 Cert.KernelIdeal.S100000x64) : F32 Cert.KernelIdeal.S100000x64 :=
  Host.scatterAdd (F := Ideal) (φ := .f32) Cert.ReferenceIdeal.scatter_S100000x64_S3200000x1_S3200000x64_1_0_0_1
    (Cert.ReferenceIdeal.Read.val_main_v39 (F := Ideal)) (Cert.ReferenceIdeal.Read.val_main_v40 (F := Ideal) x1)
    (Host.gather Cert.ReferenceIdeal.gather_S100000x64_S3200000x1_S3200000x64_1_0_n_n_0_1_164 h
      (Cert.ReferenceIdeal.Read.val_main_v37 (F := Ideal) x1))

/-- The second neighbour sum is the same gather and scatter-add, whatever array it is taken of. -/
theorem agg64_eq (h : F32 Cert.KernelIdeal.S100000x64) : Cert.KernelIdeal.Host.agg64 h x1 = refAgg64 x1 h := rfl

/-- The reference's second mean is its second neighbour sum, of its first layer, divided by the spread maxima. -/
theorem ref_mean64 : Cert.ReferenceIdeal.Read.val_main_v50 (F := Ideal) x0 x1 x2 x3 x4
    = Host.divf (F := Ideal) (φ := .f32) (refAgg64 x1 (Cert.ReferenceIdeal.Read.val_main_v31 (F := Ideal) x0 x1 x2 x3 x4))
        (Cert.ReferenceIdeal.Read.val_main_v49 (F := Ideal) x1) := rfl

/-! ## The neighbour means -/

/-- The first neighbour mean: the product with the reciprocals is the quotient. -/
theorem mean32_eq : Cert.KernelIdeal.Host.mean32 x0 x1 = Cert.ReferenceIdeal.Read.val_main_v22 (F := Ideal) x0 x1 := by
  unfold Cert.KernelIdeal.Host.mean32 Cert.KernelIdeal.Host.inv Cert.ReferenceIdeal.Read.val_main_v22
    Cert.ReferenceIdeal.Read.val_main_v21 Cert.ReferenceIdeal.Read.val_main_v20 Cert.ReferenceIdeal.Read.val_main_v19
    Cert.ReferenceIdeal.Read.val_main_v18 Cert.ReferenceIdeal.Read.val_main_cst_3
  rw [agg32_eq, cnt_eq]
  exact mean_mul_eq_div (N := 100000) (K := 32) ![0, 1] rfl rfl Cert.KernelIdeal.Facts₀.bcast_S100000x1_S100000x32_0_1 ![0] rfl
    Cert.KernelIdeal.Facts₀.bcast_S100000_S100000x1_0 ![] Cert.KernelIdeal.Facts₀.bcast_S_S100000 _ _

/-- The second neighbour mean, of any 64-feature array. -/
theorem mean64_eq (h : F32 Cert.KernelIdeal.S100000x64) : Cert.KernelIdeal.Host.mean64 h x1
    = Host.divf (F := Ideal) (φ := .f32) (refAgg64 x1 h) (Cert.ReferenceIdeal.Read.val_main_v49 (F := Ideal) x1) := by
  unfold Cert.KernelIdeal.Host.mean64 Cert.KernelIdeal.Host.inv Cert.ReferenceIdeal.Read.val_main_v49
    Cert.ReferenceIdeal.Read.val_main_v48 Cert.ReferenceIdeal.Read.val_main_v47
    Cert.ReferenceIdeal.Read.val_main_v46 Cert.ReferenceIdeal.Read.val_main_cst_9
  rw [agg64_eq, cnt_eq']
  exact mean_mul_eq_div (N := 100000) (K := 64) ![0, 1] rfl rfl Cert.KernelIdeal.Facts₀.bcast_S100000x1_S100000x64_0_1 ![0] rfl
    Cert.KernelIdeal.Facts₀.bcast_S100000_S100000x1_0 ![] Cert.KernelIdeal.Facts₀.bcast_S_S100000 _ _

/-! ## The bias rows -/

/-- A bias vector recast as a row is the vector broadcast into a row. -/
theorem row_eq (x : F32 Cert.KernelIdeal.S64) :
    Cert.KernelIdeal.Host.row x = Cert.ReferenceIdeal.Read.val_main_v25 (F := Ideal) x := by
  unfold Cert.KernelIdeal.Host.row Cert.ReferenceIdeal.Read.val_main_v25
  exact row_cast_eq_bcast (a := 64) x _ ![1] rfl _

theorem row_eq' (x : F32 Cert.KernelIdeal.S64) :
    Cert.KernelIdeal.Host.row x = Cert.ReferenceIdeal.Read.val_main_v53 (F := Ideal) x := by
  unfold Cert.KernelIdeal.Host.row Cert.ReferenceIdeal.Read.val_main_v53
  exact row_cast_eq_bcast (a := 64) x _ ![1] rfl _

/-- The classifier's bias recast as a 1×1 array is the bias broadcast into one. -/
theorem cell_eq (x : F32 Cert.KernelIdeal.S1) :
    Cert.KernelIdeal.Host.cell x = Cert.ReferenceIdeal.Read.val_main_v62 (F := Ideal) x := by
  unfold Cert.KernelIdeal.Host.cell Cert.ReferenceIdeal.Read.val_main_v62
  exact row_cast_eq_bcast (a := 1) x _ ![1] rfl _

/-! ## The results -/

/-- The first layer's output is the reference's first rectified stage. -/
theorem h1_eq : Cert.KernelIdeal.Host.h1 x0 x1 x2 x3 x4 = Cert.ReferenceIdeal.Read.val_main_v31 (F := Ideal) x0 x1 x2 x3 x4 := by
  unfold Cert.KernelIdeal.Host.h1
  rw [Cert.ReferenceIdeal.RefValue.layer1, mean32_eq, row_eq]

/-- THE BRIDGE: the idealized program's function of its arguments is the reference's. -/
theorem out_eq : Cert.KernelIdeal.Host.out x0 x1 x2 x3 x4 x5 x6 x7 x8 x9
    = Cert.ReferenceIdeal.Read.val_main_v65 (F := Ideal) x0 x1 x2 x3 x4 x5 x6 x7 x8 x9 := by
  unfold Cert.KernelIdeal.Host.out Cert.KernelIdeal.Host.logits Cert.ReferenceIdeal.Read.val_main_v65
  rw [Cert.ReferenceIdeal.RefValue.logits, Cert.ReferenceIdeal.RefValue.layer2, ref_mean64, h1_eq, mean64_eq, row_eq', cell_eq]

end Cert.Bridge

end
-- ==== Proof.lean ====
/-
  Two GraphSAGE layers and a linear head on a graph of 100000 nodes and 3200000 edges: the accelerator program
  against its reference, over the extended reals.

  Both programs take node features x : [100000, 32], an edge list [2, 3200000] (sources, destinations), the weights
  and biases of two layers and of a one-output head. For a feature array h the NEIGHBOUR MEAN at node i is the sum
  of the rows h[src e] over the edges e arriving at i, divided by max (number of such edges, 1). A LAYER is
      relu ( mean · wlᵀ + b + h · wrᵀ ),
  and the result is  relu-layer₂ (relu-layer₁ (x)) · w_clsᵀ + b_cls,  one number per node.

  The accelerator program computes the gathers, scatter-adds and the counts on the host exactly as the reference does,
  multiplies the neighbour sum by the reciprocal 1 / max (count, 1) where the reference divides, and runs each layer
  (the second fused with the head) as a launch over 50 blocks of 2000 rows, adding the two products before the bias.
  Over the extended reals:
    • a change of float format is the identity, and a matrix product into a zero accumulator is the plain sum of
      products, on the accelerator and on the host alike;
    • a · (1 / y) = a / y whenever y ≠ 0, and max (count, 1) ≥ 1 is never zero — no finiteness is needed;
    • addition is commutative and associative, so (p + q) + b = (p + b) + q;
    • a layer and the head read, for row i of the result, row i of their inputs only, so 50 row blocks computed
      separately are the 50 row blocks of one whole layer.
  Hence both programs end with the same array, whatever the (finite or infinite) inputs.

  The three programs run without a fault and leave their arguments unchanged; the idealized accelerator program is
  the accelerator program's own text read at the exact values (nothing was rewritten).
-/
import proofs.«176131_j66168266162538_1_alg».proof.Defs
import proofs.«176131_j66168266162538_1_alg».proof.Proof.Gen.Kernel
import proofs.«176131_j66168266162538_1_alg».proof.Proof.Gen.Kernel.Skeleton
import proofs.«176131_j66168266162538_1_alg».proof.Proof.Gen.Kernel.Launch
import proofs.«176131_j66168266162538_1_alg».proof.Proof.Gen.Kernel.Points
import proofs.«176131_j66168266162538_1_alg».proof.Proof.Gen.Kernel.Frame
import proofs.«176131_j66168266162538_1_alg».proof.Proof.Gen.KernelIdeal
import proofs.«176131_j66168266162538_1_alg».proof.Proof.Gen.KernelIdeal.Skeleton
import proofs.«176131_j66168266162538_1_alg».proof.Proof.Gen.KernelIdeal.Launch
import proofs.«176131_j66168266162538_1_alg».proof.Proof.Gen.KernelIdeal.Points
import proofs.«176131_j66168266162538_1_alg».proof.Proof.Gen.KernelIdeal.Frame
import proofs.«176131_j66168266162538_1_alg».proof.Proof.Gen.ReferenceIdeal
import proofs.«176131_j66168266162538_1_alg».proof.Proof.Gen.Pre_finite_inputs
import proofs.«176131_j66168266162538_1_alg».proof.Proof.Gen.ReferenceIdeal.Run
import proofs.«176131_j66168266162538_1_alg».proof.Proof.Gen.ReferenceIdeal.Read
import proofs.«176131_j66168266162538_1_alg».proof.Proof.KernelRun
import proofs.«176131_j66168266162538_1_alg».proof.Proof.KernelValue
import proofs.«176131_j66168266162538_1_alg».proof.Proof.Bridge
import Idealize.ShloMosaic.Adequacy
import Idealize.ShloMosaic.Init

noncomputable section

namespace Cert.Proof

open Idealize.ShloMosaic Idealize.SL.Sem

/-- The accelerator program runs and leaves its arguments unchanged. -/
theorem frame_kernel : Cert.frame_Kernel := fun m ρ _ => Cert.Kernel.Gen.frame m ρ

/-- So does its reading at the exact values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the accelerator program and its reading at the exact values. -/
theorem preserves : Cert.preserves_Kernel_KernelIdeal := trivial

/-- From memories that agree on the arguments both programs end with the same result array: the accelerator
    program's pure function of the arguments (read off its run segment by segment) is the reference's. -/
theorem algebraic : Cert.algebraic_KernelIdeal_ReferenceIdeal := by
  intro m ρ m' ρ' _ hagree
  refine ⟨fun c => Cert.KernelIdeal.Host.out (Cert.KernelIdeal.Value.a0 m c) (Cert.KernelIdeal.Value.a1 m c) (Cert.KernelIdeal.Value.a2 m c) (Cert.KernelIdeal.Value.a3 m c) (Cert.KernelIdeal.Value.a4 m c) (Cert.KernelIdeal.Value.a5 m c) (Cert.KernelIdeal.Value.a6 m c) (Cert.KernelIdeal.Value.a7 m c) (Cert.KernelIdeal.Value.a8 m c) (Cert.KernelIdeal.Value.a9 m c), ?_, ?_⟩
  · exact (θ_run Cert.KernelIdeal.defs _ _).mono
      (fun r h c => ⟨(h c).1.trans (Cert.KernelIdeal.Value.W5_v42 m ρ c), (h c).2⟩)
      (Cert.KernelIdeal.Result.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v65_eq, e0, e1, e2, e3, e4, e5, e6, e7, e8, e9]
    exact (Cert.Bridge.out_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
